-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S4096x4096, .bf16⟩
  | .hbm, ⟨7, _⟩ => ⟨S4096x4096, .bf16⟩
  | .hbm, ⟨8, _⟩ => ⟨S8192x4096, .f32⟩
  | .hbm, ⟨9, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The specification, and the one law that joins the two programs. A masked linear layer: for a batch index `b`, a row
  `s` and an output channel `o`,
      y[b, s, o] = (∑ e < 4096, x[b, s, e] · (w[o, e] · mk[o, e])) + bias[o]
  on the extended reals. The blocked program computes the same sum in 8 consecutive blocks of 512 terms, folded from the
  left into a zeroed accumulator; sums over a commutative monoid may be regrouped freely, so no finiteness is needed.
  Arrays are also read at NATURAL-NUMBER coordinates (zero outside their extents), so that block arithmetic
  (`512 · k + e`, `n / 32`, `n % 8`) stays in ℕ and never inside a bound proof.
-/
import Idealize.ShloMosaic.PureOps.Ideal
import Idealize.ShloMosaic.Lib.ValueIdx

noncomputable section

open Idealize.ShloMosaic Idealize.ShloMosaic.ValueIdx

namespace Cert.MaskedLinear

/-! ## Arrays at natural-number coordinates -/

/-- A vector at a natural-number coordinate, zero outside its extent. -/
def at1 {α : Type} [Zero α] {a : ℕ} (A : (⟨1, ![a]⟩ : Shape).Idx → α) (i : ℕ) : α :=
  if h : i < a then A (ix1 ⟨i, h⟩) else 0

/-- A matrix at natural-number coordinates, zero outside its extents. -/
def at2 {α : Type} [Zero α] {a b : ℕ} (A : (⟨2, ![a, b]⟩ : Shape).Idx → α) (i j : ℕ) : α :=
  if h : i < a ∧ j < b then A (ix2 ⟨i, h.1⟩ ⟨j, h.2⟩) else 0

/-- A rank-3 array at natural-number coordinates, zero outside its extents. -/
def at3 {α : Type} [Zero α] {a b c : ℕ} (A : (⟨3, ![a, b, c]⟩ : Shape).Idx → α) (i j k : ℕ) : α :=
  if h : i < a ∧ j < b ∧ k < c then A (ix3 ⟨i, h.1⟩ ⟨j, h.2.1⟩ ⟨k, h.2.2⟩) else 0

theorem at1_fin {α : Type} [Zero α] {a : ℕ} (A : (⟨1, ![a]⟩ : Shape).Idx → α) (i : Fin a) : at1 A i.val = A (ix1 i) := by
  unfold at1; rw [dif_pos i.isLt]

theorem at2_fin {α : Type} [Zero α] {a b : ℕ} (A : (⟨2, ![a, b]⟩ : Shape).Idx → α) (i : Fin a) (j : Fin b) :
    at2 A i.val j.val = A (ix2 i j) := by
  unfold at2; rw [dif_pos ⟨i.isLt, j.isLt⟩]

theorem at3_fin {α : Type} [Zero α] {a b c : ℕ} (A : (⟨3, ![a, b, c]⟩ : Shape).Idx → α) (i : Fin a) (j : Fin b) (k : Fin c) :
    at3 A i.val j.val k.val = A (ix3 i j k) := by
  unfold at3; rw [dif_pos ⟨i.isLt, j.isLt, k.isLt⟩]

/-- Reading at an index is reading at its coordinates. -/
theorem at1_idx {α : Type} [Zero α] {a : ℕ} (A : (⟨1, ![a]⟩ : Shape).Idx → α) (x : (⟨1, ![a]⟩ : Shape).Idx) :
    A x = at1 A (x 0).val := by
  exact (congrArg A (eq_ix1 x)).trans (at1_fin A (x 0)).symm

theorem at2_idx {α : Type} [Zero α] {a b : ℕ} (A : (⟨2, ![a, b]⟩ : Shape).Idx → α) (x : (⟨2, ![a, b]⟩ : Shape).Idx) :
    A x = at2 A (x 0).val (x 1).val := by
  exact (congrArg A (eq_ix2 x)).trans (at2_fin A (x 0) (x 1)).symm

theorem at3_idx {α : Type} [Zero α] {a b c : ℕ} (A : (⟨3, ![a, b, c]⟩ : Shape).Idx → α) (x : (⟨3, ![a, b, c]⟩ : Shape).Idx) :
    A x = at3 A (x 0).val (x 1).val (x 2).val := by
  exact (congrArg A (eq_ix3 x)).trans (at3_fin A (x 0) (x 1) (x 2)).symm

/-! ## Regrouping a sum into consecutive blocks -/

/-- `J` consecutive blocks of `K` terms are the `J · K` terms: `∑ s < J, ∑ e < K, f (K·s + e) = ∑ e < J·K, f e`
    in any commutative monoid. -/
theorem sum_blocks {M : Type*} [AddCommMonoid M] (J K : ℕ) (f : ℕ → M) :
    ∑ s ∈ Finset.range J, ∑ e : Fin K, f (K * s + e.val) = ∑ e : Fin (J * K), f e.val := by
  rw [Finset.sum_range, ← Fintype.sum_prod_type' (f := fun (s : Fin J) (e : Fin K) => f (K * s.val + e.val)),
    ← Equiv.sum_comp finProdFinEquiv (fun e : Fin (J * K) => f e.val)]
  refine Finset.sum_congr rfl fun x _ => ?_
  rw [finProdFinEquiv_apply_val, Nat.add_comm]

/-- The contraction axis of this layer: 8 blocks of 512. -/
theorem sum_8x512 {M : Type*} [AddCommMonoid M] (f : ℕ → M) :
    ∑ s ∈ Finset.range 8, ∑ e : Fin 512, f (512 * s + e.val) = ∑ e : Fin 4096, f e.val :=
  sum_blocks 8 512 f

/-! ## The result -/

/-- One entry of the layer's output from the four argument arrays. -/
def entry (x : (⟨3, ![4, 2048, 4096]⟩ : Shape).Idx → EReal) (w mk : (⟨2, ![4096, 4096]⟩ : Shape).Idx → EReal)
    (bias : (⟨1, ![4096]⟩ : Shape).Idx → EReal) (b : Fin 4) (s : Fin 2048) (o : Fin 4096) : EReal :=
  (∑ e : Fin 4096, x (ix3 b s e) * (w (ix2 o e) * mk (ix2 o e))) + bias (ix1 o)

/-- The layer's output array. -/
def G (x : (⟨3, ![4, 2048, 4096]⟩ : Shape).Idx → EReal) (w mk : (⟨2, ![4096, 4096]⟩ : Shape).Idx → EReal)
    (bias : (⟨1, ![4096]⟩ : Shape).Idx → EReal) : (⟨3, ![4, 2048, 4096]⟩ : Shape).Idx → EReal :=
  fun i => entry x w mk bias (i 0) (i 1) (i 2)

theorem G_ix3 (x : (⟨3, ![4, 2048, 4096]⟩ : Shape).Idx → EReal) (w mk : (⟨2, ![4096, 4096]⟩ : Shape).Idx → EReal)
    (bias : (⟨1, ![4096]⟩ : Shape).Idx → EReal) (b : Fin 4) (s : Fin 2048) (o : Fin 4096) :
    G x w mk bias (ix3 b s o) = entry x w mk bias b s o := rfl

/-- The same entry with every array read at natural-number coordinates: the form the blocked program's fold reaches. -/
theorem entry_eq_at (x : (⟨3, ![4, 2048, 4096]⟩ : Shape).Idx → EReal) (w mk : (⟨2, ![4096, 4096]⟩ : Shape).Idx → EReal)
    (bias : (⟨1, ![4096]⟩ : Shape).Idx → EReal) (b : Fin 4) (s : Fin 2048) (o : Fin 4096) :
    entry x w mk bias b s o
      = (∑ e : Fin 4096, at3 x b.val s.val e.val * (at2 w o.val e.val * at2 mk o.val e.val)) + at1 bias o.val := by
  unfold entry
  rw [at1_fin]
  refine congrArg (· + bias (ix1 o)) (Finset.sum_congr rfl fun e _ => ?_)
  rw [at3_fin, at2_fin, at2_fin]

end Cert.MaskedLinear

end
-- ==== Proof.RefSide.lean ====
/-
  The reference computes the specification. Its five operations are: the masked weight `w ∘ mk`; the contraction of
  `x`'s last axis with the masked weight's last axis, which at the extended reals is the plain sum over the 4096
  contraction coordinates; the bias broadcast along the batch and row axes; and the sum of the two. Read at an index
  `(b, s, o)` that is `(∑ e, x[b,s,e] · (w[o,e] · mk[o,e])) + bias[o]`, the specification's entry.
-/
import proofs.«120315_j57690000719893_2_alg».proof.Proof.Gen.ReferenceIdeal.Read
import proofs.«120315_j57690000719893_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.MaskedLinear

/-- The reference's last stage, as a function of the four arguments, is the specification. -/
theorem val_eq_G (x0 : (⟨S4x2048x4096, .f32⟩ : BufTy).Contents (Elt Ideal)) (x1 x3 : (⟨S4096x4096, .f32⟩ : BufTy).Contents (Elt Ideal))
    (x2 : (⟨S4096, .f32⟩ : BufTy).Contents (Elt Ideal)) :
    val_main_v4 (F := Ideal) x0 x1 x2 x3 = G x0 x1 x3 x2 := by
  funext i
  obtain ⟨b, s, o, rfl⟩ : ∃ (b : Fin 4) (s : Fin 2048) (o : Fin 4096), i = ix3 b s o := ⟨i 0, i 1, i 2, eq_ix3 i⟩
  rw [val_main_v4_apply, val_main_v1_apply, val_main_v3_apply, val_main_v2_apply, G_ix3]
  have el : ∀ k : Fin 4096, lidx_main_v1 (ix3 b s o) k = ix3 b s k := fun k => funext fun a => Fin.ext (by
    match a with
    | ⟨0, _⟩ => rfl
    | ⟨1, _⟩ => rfl
    | ⟨2, _⟩ => rfl)
  have er : ∀ k : Fin 4096, ridx_main_v1 (ix3 b s o) k = ix2 o k := fun k => funext fun a => Fin.ext (by
    match a with
    | ⟨0, _⟩ => rfl
    | ⟨1, _⟩ => rfl)
  have eb : idx_main_v2 (idx_main_v3 (ix3 b s o)) = ix1 o := funext fun a => Fin.ext (by
    match a with
    | ⟨0, _⟩ => rfl)
  simp only [el, er, eb, val_main_v0_apply]
  rfl

end Cert.ReferenceIdeal.RefValue

end
-- ==== Proof.Pieces.lean ====
/-
  What one grid step leaves behind, as values. The kernel keeps a [2048, 1024] accumulator between the steps of the
  contraction axis. A step whose contraction coordinate is 0 first stores the zero block and then adds its product
  block to what it reads back; every other step adds its product block to what the step before left; the step with the
  last contraction coordinate also writes accumulator + bias row into the output block. Each of these is ONE store
  through the whole block, so what the block holds afterwards is that store's value, read as a function of the
  loaded input blocks: `step x w mk acc = acc + x · (w ∘ mk)ᵀ` (the second payload) and `fin acc b = acc + b`
  broadcast over the rows (the third payload); the first payload is the zero block.
-/
import proofs.«120315_j57690000719893_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A middle step of the contraction axis: the accumulator ends at `acc + x · (w ∘ mk)ᵀ` of the step's input blocks
    and of what the step before left (`acc`). -/
theorem scratch_B (c : Dev nD) (i : grid0.Coords) (a3 : Memref sig .tc .vmem S2048x512 .f32) (h3 : a3.IsWhole) (a4 : Memref sig .tc .vmem S1024x512 .bf16) (h4 : a4.IsWhole) (a5 : Memref sig .tc .vmem S1024x512 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i)
    (x0 : Vec F S2048x512 .f32) (x1 : Vec F S1024x512 .bf16) (x2 : Vec F S1024x512 .bf16) (x3 : Vec F S1x1024 .f32) (xs0 : Vec F S2048x1024 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread,
    View.ld_unit_zero (S := S2048x512) hz, View.ld_unit_zero (S := S1024x512) hz, View.ld_unit_zero (S := S2048x1024) hz,
    View.ld_unit_zero (S := S1x1024) hz]

/-- The last step of the contraction axis leaves the same in the accumulator. -/
theorem scratch_C (c : Dev nD) (i : grid0.Coords) (a3 : Memref sig .tc .vmem S2048x512 .f32) (h3 : a3.IsWhole) (a4 : Memref sig .tc .vmem S1024x512 .bf16) (h4 : a4.IsWhole) (a5 : Memref sig .tc .vmem S1024x512 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x512 .f32) (x1 : Vec F S1024x512 .bf16) (x2 : Vec F S1024x512 .bf16) (x3 : Vec F S1x1024 .f32) (xs0 : Vec F S2048x1024 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S2048x512) hz, View.ld_unit_zero (S := S1024x512) hz, View.ld_unit_zero (S := S2048x1024) hz,
    View.ld_unit_zero (S := S1x1024) hz]

/-- … and writes the updated accumulator plus the bias row into the output block: the accumulator it reads back is the
    one it has just stored. -/
theorem out_C (c : Dev nD) (i : grid0.Coords) (a3 : Memref sig .tc .vmem S2048x512 .f32) (h3 : a3.IsWhole) (a4 : Memref sig .tc .vmem S1024x512 .bf16) (h4 : a4.IsWhole) (a5 : Memref sig .tc .vmem S1024x512 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x512 .f32) (x1 : Vec F S1024x512 .bf16) (x2 : Vec F S1024x512 .bf16) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S2048x1024) _ hz]
  simp only [View.readAt_eq_ld, h3.read_unread, h4.read_unread, h5.read_unread, h6.read_unread, h8.read_unread,
    View.ld_unit_zero (S := S2048x512) hz, View.ld_unit_zero (S := S1024x512) hz, View.ld_unit_zero (S := S2048x1024) hz,
    View.ld_unit_zero (S := S1x1024) hz]

/-- The first step of the contraction axis: the accumulator is zeroed, read back, and ends at `0 + x · (w ∘ mk)ᵀ`,
    whatever it held before. -/
theorem scratch_A (c : Dev nD) (i : grid0.Coords) (a3 : Memref sig .tc .vmem S2048x512 .f32) (h3 : a3.IsWhole) (a4 : Memref sig .tc .vmem S1024x512 .bf16) (h4 : a4.IsWhole) (a5 : Memref sig .tc .vmem S1024x512 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i)
    (x0 : Vec F S2048x512 .f32) (x1 : Vec F S1024x512 .bf16) (x2 : Vec F S1024x512 .bf16) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h8.read_unread,
    View.ld_unit_zero (S := S2048x512) hz, View.ld_unit_zero (S := S1024x512) hz, View.ld_unit_zero (S := S2048x1024) hz,
    View.ld_unit_zero (S := S1x1024) hz]

end Cert.KernelIdeal.Pieces

end
-- ==== Proof.Payload.lean ====
/-
  The three stored values of the body, read at one entry, on the extended reals (a change of float format is the
  identity there, and the matrix unit's product into a zero accumulator is the plain sum over the contraction
  coordinate):
      zero            (p, q) = 0
      step x w mk acc (p, q) = acc (p, q) + ∑ e < 512, x (p, e) · (w (q, e) · mk (q, e))
      fin acc b       (p, q) = acc (p, q) + b (0, q).
  Both operands of the product are contracted along their LAST axis: the left index of entry `(p, q)` at contraction
  coordinate `e` is `(p, e)`, the right one `(q, e)`.
-/
import proofs.«120315_j57690000719893_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx

namespace Cert.KernelIdeal.Payload

open Cert.KernelIdeal Cert.KernelIdeal.Gen

/-- The left operand's index keeps the output's row on its first axis, -/
theorem lhs_0 (i : S2048x1024.Idx) (k : dot_S2048x512_S1024x512_S2048x1024_1_1_0_0_n_n.contr.Idx) :
    (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
/-- and carries the contraction coordinate on its second; -/
theorem lhs_1 (i : S2048x1024.Idx) (k : dot_S2048x512_S1024x512_S2048x1024_1_1_0_0_n_n.contr.Idx) :
    (dot_S2048x512_S1024x512_S2048x1024_1_1_0_0_n_n.lhsIdx i k 1).val = (k ⟨0, by decide⟩).val :=
  dot_S2048x512_S1024x512_S2048x1024_1_1_0_0_n_n.lhsIdx_val_of_single rfl i k
/-- the right operand's index keeps the output's column on its first axis, -/
theorem rhs_0 (i : S2048x1024.Idx) (k : dot_S2048x512_S1024x512_S2048x1024_1_1_0_0_n_n.contr.Idx) :
    (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
/-- and carries the contraction coordinate on its second. -/
theorem rhs_1 (i : S2048x1024.Idx) (k : dot_S2048x512_S1024x512_S2048x1024_1_1_0_0_n_n.contr.Idx) :
    (dot_S2048x512_S1024x512_S2048x1024_1_1_0_0_n_n.rhsIdx i k 1).val = (k ⟨0, by decide⟩).val :=
  dot_S2048x512_S1024x512_S2048x1024_1_1_0_0_n_n.rhsIdx_val_of_single rfl i k

/-- The product block into a zero accumulator, at `(p, q)`: the sum over the 512 contraction coordinates. -/
theorem matmul_zero_apply (l : FVec Ideal S2048x512 .bf16) (r : FVec Ideal S1024x512 .bf16) (p : Fin 2048) (q : Fin 1024) :
    matmul dot_S2048x512_S1024x512_S2048x1024_1_1_0_0_n_n none l r (constant (F := Ideal) S2048x1024 .f32 0x00000000#32) (ix2 p q)
      = ∑ e : Fin 512, l (ix2 p e) * r (ix2 q e) := by
  refine (Ideal.matmul_constant_zero_apply dot_S2048x512_S1024x512_S2048x1024_1_1_0_0_n_n none l r (ix2 p q)).trans ?_
  rw [← Equiv.sum_comp (contrEquiv1 dot_S2048x512_S1024x512_S2048x1024_1_1_0_0_n_n 512 rfl rfl).symm]
  refine Finset.sum_congr rfl fun e _ => ?_
  have hk := contrEquiv1_symm_val dot_S2048x512_S1024x512_S2048x1024_1_1_0_0_n_n 512 rfl rfl e
  have el : dot_S2048x512_S1024x512_S2048x1024_1_1_0_0_n_n.lhsIdx (ix2 p q) ((contrEquiv1 dot_S2048x512_S1024x512_S2048x1024_1_1_0_0_n_n 512 rfl rfl).symm e) = ix2 p e := funext fun a => Fin.ext (by
    match a with
    | ⟨0, _⟩ => exact lhs_0 _ _
    | ⟨1, _⟩ => exact (lhs_1 _ _).trans hk)
  have er : dot_S2048x512_S1024x512_S2048x1024_1_1_0_0_n_n.rhsIdx (ix2 p q) ((contrEquiv1 dot_S2048x512_S1024x512_S2048x1024_1_1_0_0_n_n 512 rfl rfl).symm e) = ix2 q e := funext fun a => Fin.ext (by
    match a with
    | ⟨0, _⟩ => exact rhs_0 _ _
    | ⟨1, _⟩ => exact (rhs_1 _ _).trans hk)
  rw [el, er]

/-- The zero block. -/
theorem zero_apply (j : S2048x1024.Idx) : k0_pay1 (F := Ideal) j = 0 := by
  unfold k0_pay1
  simp only [shapeCast_self]
  exact Ideal.ofBits_zero_f32

/-- One accumulation step at an entry. -/
theorem step_apply (x : Vec Ideal S2048x512 .f32) (w mk : Vec Ideal S1024x512 .bf16) (acc : Vec Ideal S2048x1024 .f32)
    (p : Fin 2048) (q : Fin 1024) :
    k0_pay2 x w mk acc (ix2 p q) = acc (ix2 p q) + ∑ e : Fin 512, x (ix2 p e) * (w (ix2 q e) * mk (ix2 q e)) := by
  unfold k0_pay2
  simp only [shapeCast_self]
  refine (addf_apply _ _ _).trans ?_
  refine congrArg (acc (ix2 p q) + ·) ?_
  exact matmul_zero_apply _ _ p q

/-- The bias row added over every row of the block. -/
theorem fin_apply (acc : Vec Ideal S2048x1024 .f32) (b : Vec Ideal S1x1024 .f32) (p : Fin 2048) (q : Fin 1024) :
    k0_pay3 acc b (ix2 p q) = acc (ix2 p q) + b (ix2 (0 : Fin 1) q) := by
  unfold k0_pay3
  simp only [shapeCast_self]
  refine (addf_apply _ _ _).trans ?_
  exact congrArg (acc (ix2 p q) + ·) (broadcastTo_1b_ab_apply b broadcasts_S1x1024_S2048x1024 p q)

end Cert.KernelIdeal.Payload

end
-- ==== Proof.Blocks.lean ====
/-
  Where each window's block sits. The grid is 4 × 4 × 8, its points numbered with the contraction axis fastest:
  point `n` is row block `n / 32`, column block `n / 8 % 4`, contraction block `n % 8`. Before the call the program
  flattens `x` to [8192, 4096] (row `2048·b + s`), gives the bias a unit leading axis, and changes the format of the
  weight and the mask, which at the extended reals changes nothing. So at point `n`
      the x block      (p, e) is x   [n / 32, p, 512·(n % 8) + e],
      the weight block (q, e) is w   [1024·(n / 8 % 4) + q, 512·(n % 8) + e],   the mask block likewise,
      the bias block   (0, q) is bias[1024·(n / 8 % 4) + q].
  Arrays are read at natural-number coordinates (zero outside their extents), so the block arithmetic stays in ℕ.
-/
import proofs.«120315_j57690000719893_2_alg».proof.Proof.Gen.KernelIdeal.Frame
import proofs.«120315_j57690000719893_2_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.MaskedLinear

variable (m : (ℓ : Loc nD τ sig) → Buf (Elt Ideal) ℓ)

/-! ## The block indices, in closed form -/

/-- Each window's block index at point `t`, decided once over the 128 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-! ## The arguments, and the arrays the call finds -/

/-- The four arguments as launched. -/
def argX (c : Dev nD) : (⟨3, ![4, 2048, 4096]⟩ : Shape).Idx → EReal := m ((c : Thread nD τ).loc main_arg0)
def argW (c : Dev nD) : (⟨2, ![4096, 4096]⟩ : Shape).Idx → EReal := m ((c : Thread nD τ).loc main_arg1)
def argB (c : Dev nD) : (⟨1, ![4096]⟩ : Shape).Idx → EReal := m ((c : Thread nD τ).loc main_arg2)
def argM (c : Dev nD) : (⟨2, ![4096, 4096]⟩ : Shape).Idx → EReal := m ((c : Thread nD τ).loc main_arg3)

/-- The four arrays the call's input windows are cut from. -/
def inX (c : Dev nD) : (⟨2, ![8192, 4096]⟩ : Shape).Idx → EReal := V m c main_v0
def inB (c : Dev nD) : (⟨2, ![1, 4096]⟩ : Shape).Idx → EReal := V m c main_v1
def inW (c : Dev nD) : (⟨2, ![4096, 4096]⟩ : Shape).Idx → EReal := V m c main_v2
def inM (c : Dev nD) : (⟨2, ![4096, 4096]⟩ : Shape).Idx → EReal := V m c main_v3

/-- `x` flattened to [8192, 4096]. -/
theorem inX_eq (c : Dev nD) : inX m c = shapeCast S8192x4096 (argX m c) shapeCasts_S4x2048x4096_S8192x4096 := by
  unfold inX argX
  show StableHlo.after hostOps0 (fun b => m (c, b)) (Proc.devRef .tc main_v0) = _
  after_results
  rfl

/-- The bias with a unit leading axis. -/
theorem inB_eq (c : Dev nD) : inB m c = shapeCast S1x4096 (argB m c) shapeCasts_S4096_S1x4096 := by
  unfold inB argB
  show StableHlo.after hostOps0 (fun b => m (c, b)) (Proc.devRef .tc main_v1) = _
  after_results
  rfl

/-- The weight and the mask: a change of format, the identity on the extended reals. -/
theorem inW_eq (c : Dev nD) : inW m c = argW m c := by
  unfold inW argW
  show StableHlo.after hostOps0 (fun b => m (c, b)) (Proc.devRef .tc main_v2) = _
  after_results
  rfl

theorem inM_eq (c : Dev nD) : inM m c = argM m c := by
  unfold inM argM
  show StableHlo.after hostOps0 (fun b => m (c, b)) (Proc.devRef .tc main_v3) = _
  after_results
  rfl

/-- Row `r` of the flattened `x` is row `r % 2048` of batch `r / 2048`. -/
theorem inX_at (c : Dev nD) (r e : ℕ) : at2 (inX m c) r e = at3 (argX m c) (r / 2048) (r % 2048) e := by
  rw [inX_eq]
  unfold at2 at3
  by_cases h : r < 8192 ∧ e < 4096
  · rw [dif_pos h, dif_pos ⟨by omega, by omega, h.2⟩]
    refine shapeCast_apply _ _ _ _ ?_
    rw [Shape.rowMajor_val_three, Shape.rowMajor_val_two]
    show (r / 2048 * 2048 + r % 2048) * 4096 + e = r * 4096 + e
    omega
  · rw [dif_neg h, dif_neg (by omega)]

/-- The one row of the bias array is the bias. -/
theorem inB_at (c : Dev nD) (o : ℕ) : at2 (inB m c) 0 o = at1 (argB m c) o := by
  rw [inB_eq]
  unfold at2 at1
  by_cases h : o < 4096
  · rw [dif_pos ⟨Nat.one_pos, h⟩, dif_pos h]
    exact shapeCast_a_1a_apply (argB m c) shapeCasts_S4096_S1x4096 ⟨0, Nat.one_pos⟩ ⟨o, h⟩
  · rw [dif_neg (by omega), dif_neg h]

/-! ## The windows' blocks -/

/-- An entry of the x block at point `t`, in the array the window is cut from: block index times block size plus the
    coordinate inside the block, on each axis. -/
theorem iblk0_at (c : Dev nD) (t : Fin cfg0.N) (y : S2048x512.Idx) :
    (iblk m c 0 t : S2048x512.Idx → EReal) y
      = at2 (inX m c) (win0_0.index t (0 : Fin 2) * 2048 + (y 0).val) (win0_0.index t (1 : Fin 2) * 512 + (y 1).val) := by
  unfold iblk
  rw [View.read_apply]
  show inX m c _ = _
  refine (at2_idx (inX m c) _).trans ?_
  congr 1
  · show win0_0.index t (0 : Fin 2) * 2048 + 1 * (y 0).val = _; omega
  · show win0_0.index t (1 : Fin 2) * 512 + 1 * (y 1).val = _; omega

theorem iblk1_at (c : Dev nD) (t : Fin cfg0.N) (y : S1024x512.Idx) :
    (iblk m c 1 t : S1024x512.Idx → EReal) y
      = at2 (inW m c) (win0_1.index t (0 : Fin 2) * 1024 + (y 0).val) (win0_1.index t (1 : Fin 2) * 512 + (y 1).val) := by
  unfold iblk
  rw [View.read_apply]
  show inW m c _ = _
  refine (at2_idx (inW m c) _).trans ?_
  congr 1
  · show win0_1.index t (0 : Fin 2) * 1024 + 1 * (y 0).val = _; omega
  · show win0_1.index t (1 : Fin 2) * 512 + 1 * (y 1).val = _; omega

theorem iblk2_at (c : Dev nD) (t : Fin cfg0.N) (y : S1024x512.Idx) :
    (iblk m c 2 t : S1024x512.Idx → EReal) y
      = at2 (inM m c) (win0_2.index t (0 : Fin 2) * 1024 + (y 0).val) (win0_2.index t (1 : Fin 2) * 512 + (y 1).val) := by
  unfold iblk
  rw [View.read_apply]
  show inM m c _ = _
  refine (at2_idx (inM m c) _).trans ?_
  congr 1
  · show win0_2.index t (0 : Fin 2) * 1024 + 1 * (y 0).val = _; omega
  · show win0_2.index t (1 : Fin 2) * 512 + 1 * (y 1).val = _; omega

theorem iblk3_at (c : Dev nD) (t : Fin cfg0.N) (y : S1x1024.Idx) :
    (iblk m c 3 t : S1x1024.Idx → EReal) y
      = at2 (inB m c) (win0_3.index t (0 : Fin 2) * 1 + (y 0).val) (win0_3.index t (1 : Fin 2) * 1024 + (y 1).val) := by
  unfold iblk
  rw [View.read_apply]
  show inB m c _ = _
  refine (at2_idx (inB m c) _).trans ?_
  congr 1
  · show win0_3.index t (0 : Fin 2) * 1 + 1 * (y 0).val = _; omega
  · show win0_3.index t (1 : Fin 2) * 1024 + 1 * (y 1).val = _; omega

/-- The x block at point `t`: rows of batch `t / 32`, columns of contraction block `t % 8`. -/
theorem iblk0_apply (c : Dev nD) (t : Fin cfg0.N) (p : Fin 2048) (e : Fin 512) :
    (iblk m c 0 t : S2048x512.Idx → EReal) (ix2 p e) = at3 (argX m c) (t.val / 32) p.val (512 * (t.val % 8) + e.val) := by
  obtain ⟨e0, e1, -⟩ := idx_facts t
  have hp := p.isLt
  rw [iblk0_at, inX_at, e0, e1]
  show at3 (argX m c) ((t.val / 32 * 2048 + p.val) / 2048) ((t.val / 32 * 2048 + p.val) % 2048) (t.val % 8 * 512 + e.val) = _
  rw [show (t.val / 32 * 2048 + p.val) / 2048 = t.val / 32 by omega, show (t.val / 32 * 2048 + p.val) % 2048 = p.val by omega,
    show t.val % 8 * 512 + e.val = 512 * (t.val % 8) + e.val by omega]

/-- The weight block at point `t`: rows of column block `t / 8 % 4`, columns of contraction block `t % 8`. -/
theorem iblk1_apply (c : Dev nD) (t : Fin cfg0.N) (q : Fin 1024) (e : Fin 512) :
    (iblk m c 1 t : S1024x512.Idx → EReal) (ix2 q e) = at2 (argW m c) (1024 * (t.val / 8 % 4) + q.val) (512 * (t.val % 8) + e.val) := by
  obtain ⟨-, -, e0, e1, -⟩ := idx_facts t
  rw [iblk1_at, inW_eq, e0, e1]
  show at2 (argW m c) (t.val / 8 % 4 * 1024 + q.val) (t.val % 8 * 512 + e.val) = _
  rw [show t.val / 8 % 4 * 1024 + q.val = 1024 * (t.val / 8 % 4) + q.val by omega,
    show t.val % 8 * 512 + e.val = 512 * (t.val % 8) + e.val by omega]

/-- The mask block, likewise. -/
theorem iblk2_apply (c : Dev nD) (t : Fin cfg0.N) (q : Fin 1024) (e : Fin 512) :
    (iblk m c 2 t : S1024x512.Idx → EReal) (ix2 q e) = at2 (argM m c) (1024 * (t.val / 8 % 4) + q.val) (512 * (t.val % 8) + e.val) := by
  obtain ⟨-, -, -, -, e0, e1, -⟩ := idx_facts t
  rw [iblk2_at, inM_eq, e0, e1]
  show at2 (argM m c) (t.val / 8 % 4 * 1024 + q.val) (t.val % 8 * 512 + e.val) = _
  rw [show t.val / 8 % 4 * 1024 + q.val = 1024 * (t.val / 8 % 4) + q.val by omega,
    show t.val % 8 * 512 + e.val = 512 * (t.val % 8) + e.val by omega]

/-- The bias block at point `t`: the entries of column block `t / 8 % 4`. -/
theorem iblk3_apply (c : Dev nD) (t : Fin cfg0.N) (q : Fin 1024) :
    (iblk m c 3 t : S1x1024.Idx → EReal) (ix2 (0 : Fin 1) q) = at1 (argB m c) (1024 * (t.val / 8 % 4) + q.val) := by
  obtain ⟨-, -, -, -, -, -, e0, e1, -⟩ := idx_facts t
  rw [iblk3_at, e0, e1]
  show at2 (inB m c) (0 * 1 + 0) (t.val / 8 % 4 * 1024 + q.val) = _
  rw [show (0 * 1 + 0 : ℕ) = 0 from rfl, inB_at, show t.val / 8 % 4 * 1024 + q.val = 1024 * (t.val / 8 % 4) + q.val by omega]

end Cert.KernelIdeal.Blocks

end
-- ==== Proof.Fold.lean ====
/-
  The accumulation along the contraction axis. The accumulator after point `n` is reset to `0 + (product block of n)`
  where `n % 8 = 0` and is `(accumulator after n - 1) + (product block of n)` elsewhere: a left fold over each run of 8
  consecutive points. At the entry `(p, q)` the product block of point `n` is
      ∑ e < 512, x[n/32, p, 512·(n%8) + e] · (w[1024·(n/8%4) + q, 512·(n%8) + e] · mk[same]),
  so after the last point of a run (`n % 8 = 7`) the accumulator is the sum of the run's 8 blocks, which regroups to the
  one sum over the 4096 contraction coordinates; that point's output block adds the bias entry of its column.
-/
import proofs.«120315_j57690000719893_2_alg».proof.Proof.Pieces
import proofs.«120315_j57690000719893_2_alg».proof.Proof.Payload
import proofs.«120315_j57690000719893_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.MaskedLinear Cert.KernelIdeal.Blocks

variable (m : (ℓ : Loc nD τ sig) → Buf (Elt Ideal) ℓ)

/-! ## One point -/

/-- A run's first point leaves the zero block plus the point's product block. -/
def resetT (c : Dev nD) (t : Fin cfg0.N) : Vec Ideal S2048x1024 .f32 :=
  k0_pay2 (iblk m c 0 t) (iblk m c 1 t) (iblk m c 2 t) (k0_pay1 (F := Ideal))

/-- A later point leaves what came before plus the point's product block. -/
def stepT (c : Dev nD) (t : Fin cfg0.N) (a : Vec Ideal S2048x1024 .f32) : Vec Ideal S2048x1024 .f32 :=
  k0_pay2 (iblk m c 0 t) (iblk m c 1 t) (iblk m c 2 t) a

theorem accT_reset (c : Dev nD) (t : Fin cfg0.N) (h0 : t.val % 8 = 0) :
    (outsAt0 m c t.val t.isLt).2 = resetT m c t := by
  have h1 : ¬t.val % 8 = 7 := by omega
  unfold resetT
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t) (iblk m c 3 t)

theorem accT_step (c : Dev nD) (t : Fin cfg0.N) (h0 : ¬t.val % 8 = 0) :
    (outsAt0 m c t.val t.isLt).2
      = stepT m c t (outsAt0 m c (t.val - 1) (Nat.lt_of_le_of_lt (Nat.sub_le _ _) t.isLt)).2 := by
  unfold stepT
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) _
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t) _

/-- The output block at a run's last point: its accumulator plus the bias row. -/
theorem out_last (c : Dev nD) (t : Fin cfg0.N) (h7 : t.val % 8 = 7) :
    (outsAt0 m c t.val t.isLt).1 = k0_pay3 (outsAt0 m c t.val t.isLt).2 (iblk m c 3 t) := by
  have h0 : ¬t.val % 8 = 0 := by omega
  rw [outsAt0_C m c t h0 h7]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t) _,
    Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t) _]

/-- Point `n`'s product block at the entry `i`, over the argument arrays (defined for every natural `n`). -/
def addend (c : Dev nD) (n : ℕ) (i : S2048x1024.Idx) : EReal :=
  ∑ e : Fin 512, at3 (argX m c) (n / 32) (i 0).val (512 * (n % 8) + e.val)
    * (at2 (argW m c) (1024 * (n / 8 % 4) + (i 1).val) (512 * (n % 8) + e.val)
      * at2 (argM m c) (1024 * (n / 8 % 4) + (i 1).val) (512 * (n % 8) + e.val))

theorem stepT_at (c : Dev nD) (t : Fin cfg0.N) (a : Vec Ideal S2048x1024 .f32) (i : S2048x1024.Idx) :
    stepT m c t a i = a i + addend m c t.val i := by
  obtain ⟨p, q, rfl⟩ : ∃ (p : Fin 2048) (q : Fin 1024), i = ix2 p q := ⟨i 0, i 1, eq_ix2 i⟩
  unfold stepT addend
  refine (Payload.step_apply _ _ _ a p q).trans (congrArg (a (ix2 p q) + ·) (Finset.sum_congr rfl fun e _ => ?_))
  rw [iblk0_apply m c t p e, iblk1_apply m c t q e, iblk2_apply m c t q e]

theorem resetT_at (c : Dev nD) (t : Fin cfg0.N) (i : S2048x1024.Idx) :
    resetT m c t i = 0 + addend m c t.val i := by
  have := stepT_at m c t (k0_pay1 (F := Ideal)) i
  rw [Payload.zero_apply] at this
  exact this

/-! ## The run of 8 points -/

/-- The accumulator after point `n`. -/
def acc (c : Dev nD) (n : ℕ) (h : n < cfg0.N) : Vec Ideal S2048x1024 .f32 := (outsAt0 m c n h).2

def reset (c : Dev nD) (n : ℕ) (h : n < cfg0.N) : Vec Ideal S2048x1024 .f32 := resetT m c ⟨n, h⟩

def step (c : Dev nD) (n : ℕ) (h : n < cfg0.N) (a : Vec Ideal S2048x1024 .f32) : Vec Ideal S2048x1024 .f32 :=
  stepT m c ⟨n, h⟩ a

theorem acc_reset (c : Dev nD) (n : ℕ) (h : n < cfg0.N) (h0 : n % 8 = 0) : acc m c n h = reset m c n h :=
  accT_reset m c ⟨n, h⟩ h0

theorem acc_step (c : Dev nD) (n : ℕ) (h : n + 1 < cfg0.N) (h0 : ¬(n + 1) % 8 = 0) :
    acc m c (n + 1) h = step m c (n + 1) h (acc m c n (Nat.lt_of_succ_lt h)) :=
  accT_step m c ⟨n + 1, h⟩ h0

theorem step_at (c : Dev nD) (n : ℕ) (h : n < cfg0.N) (a : Vec Ideal S2048x1024 .f32) (i : S2048x1024.Idx) :
    step m c n h a i = a i + addend m c n i := stepT_at m c ⟨n, h⟩ a i

theorem reset_at (c : Dev nD) (n : ℕ) (h : n < cfg0.N) (i : S2048x1024.Idx) :
    reset m c n h i = 0 + addend m c n i := resetT_at m c ⟨n, h⟩ i

/-- The accumulator after any point is the fold over the point's run, from the run's first point. -/
theorem acc_eq_fold (c : Dev nD) (t : ℕ) (ht : t < cfg0.N) (h' : 8 * (t / 8) + t % 8 < cfg0.N) :
    acc m c t ht = Pipeline.accAt (reset m c) (step m c) (8 * (t / 8)) (t % 8) h' :=
  Pipeline.eq_accAt_of_mod (acc m c) 8 (reset m c) (step m c) (acc_reset m c) (acc_step m c) (by decide) t ht h'

/-- After the last point of a run the accumulator holds, at `(p, q)`, the whole contraction. -/
theorem acc_last (c : Dev nD) (t : Fin cfg0.N) (h7 : t.val % 8 = 7) (i : S2048x1024.Idx) :
    acc m c t.val t.isLt i
      = ∑ e : Fin 4096, at3 (argX m c) (t.val / 32) (i 0).val e.val
          * (at2 (argW m c) (1024 * (t.val / 8 % 4) + (i 1).val) e.val * at2 (argM m c) (1024 * (t.val / 8 % 4) + (i 1).val) e.val) := by
  have hN : cfg0.N = 128 := N_0
  have ht := t.isLt
  have h' : 8 * (t.val / 8) + t.val % 8 < cfg0.N := by omega
  rw [acc_eq_fold m c t.val t.isLt h']
  have key := Pipeline.accAt_add_apply (reset m c) (step m c) (fun _ => (0 : EReal)) (addend m c) (8 * (t.val / 8)) 7
    (fun h i => reset_at m c _ h i) (fun n h a i _ _ => step_at m c n h a i) (t.val % 8) (by omega) h' i
  rw [key, zero_add, h7]
  rw [← sum_8x512 (fun e' => at3 (argX m c) (t.val / 32) (i 0).val e'
          * (at2 (argW m c) (1024 * (t.val / 8 % 4) + (i 1).val) e' * at2 (argM m c) (1024 * (t.val / 8 % 4) + (i 1).val) e'))]
  refine Finset.sum_congr rfl fun s hs => ?_
  have hs8 : s < 8 := Finset.mem_range.mp hs
  unfold addend
  rw [show (8 * (t.val / 8) + s) / 32 = t.val / 32 by omega, show (8 * (t.val / 8) + s) % 8 = s by omega,
    show (8 * (t.val / 8) + s) / 8 % 4 = t.val / 8 % 4 by omega]

/-- So the block a run's last point writes back holds, at `(p, q)`, the layer's entry for its row and column. -/
theorem block_last (c : Dev nD) (t : Fin cfg0.N) (h7 : t.val % 8 = 7) (p : Fin 2048) (q : Fin 1024) :
    (outsAt0 m c t.val t.isLt).1 (ix2 p q)
      = (∑ e : Fin 4096, at3 (argX m c) (t.val / 32) p.val e.val
          * (at2 (argW m c) (1024 * (t.val / 8 % 4) + q.val) e.val * at2 (argM m c) (1024 * (t.val / 8 % 4) + q.val) e.val))
        + at1 (argB m c) (1024 * (t.val / 8 % 4) + q.val) := by
  rw [out_last m c t h7]
  refine (Payload.fin_apply _ _ p q).trans ?_
  rw [show (outsAt0 m c t.val t.isLt).2 (ix2 p q) = acc m c t.val t.isLt (ix2 p q) from rfl,
    acc_last m c t h7 (ix2 p q), iblk3_apply m c t q]

end Cert.KernelIdeal.Fold

end
-- ==== Proof.Final.lean ====
/-
  From blocks to the result. The call's output is an [8192, 4096] array cut into 4 × 4 blocks of [2048, 1024]; block
  `(i, j)` is written back once, by the last point of its run of 8 (point `32·i + 8·j + 7`), and holds at `(p, q)` the
  layer's entry for row `2048·i + p` and column `1024·j + q`. Every entry of the array lies in exactly such a block, so
  the array ends holding, at `(r, o)`,
      (∑ e < 4096, x[r / 2048, r % 2048, e] · (w[o, e] · mk[o, e])) + bias[o].
  The program then reshapes it to [4, 2048, 4096]: entry `(b, s, o)` is row `2048·b + s`, the specification's entry.
-/
import proofs.«120315_j57690000719893_2_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.MaskedLinear Cert.KernelIdeal.Blocks Cert.KernelIdeal.Fold

variable (m : (ℓ : Loc nD τ sig) → Buf (Elt Ideal) ℓ) (ρ : Dev nD → PrngReg)

/-- The flat result's entry at natural-number row `r` and column `o`. -/
def entryAt (c : Dev nD) (r o : ℕ) : EReal :=
  (∑ e : Fin 4096, at3 (argX m c) (r / 2048) (r % 2048) e.val * (at2 (argW m c) o e.val * at2 (argM m c) o e.val))
    + at1 (argB m c) o

/-- What the call's output array ends holding. -/
def out2 (c : Dev nD) : (⟨2, ![8192, 4096]⟩ : Shape).Idx → EReal := fun j => entryAt m c (j 0).val (j 1).val

/-- What a run's last point writes back is its block of `out2`. -/
theorem flushed_eq (c : Dev nD) (t : Fin cfg0.N) (hf : (cfg0.win 4).flush t = true) :
    (dats m 0 c).flushed 4 t = ((cfg0.win 4).blk t).view.read (Elt Ideal) (out2 m c) := by
  have h7 := (flush0_4 t).mp hf
  obtain ⟨-, -, -, -, -, -, -, -, e0, e1⟩ := idx_facts t
  show (cfg0.win 4).cut (grid0.coords t) ((dats m 0 c).after 4 t) = _
  rw [after0_4]
  refine funext fun (y : S2048x1024.Idx) => ?_
  obtain ⟨p, q, rfl⟩ : ∃ (p : Fin 2048) (q : Fin 1024), y = ix2 p q := ⟨y 0, y 1, eq_ix2 y⟩
  refine (block_last m c t h7 p q).trans ?_
  show _ = entryAt m c (win0_4.index t (0 : Fin 2) * 2048 + 1 * p.val) (win0_4.index t (1 : Fin 2) * 1024 + 1 * q.val)
  have hp := p.isLt
  rw [e0, e1]
  unfold entryAt
  rw [show (t.val / 32 * 2048 + 1 * p.val) / 2048 = t.val / 32 by omega,
    show (t.val / 32 * 2048 + 1 * p.val) % 2048 = p.val by omega,
    show t.val / 8 % 4 * 1024 + 1 * q.val = 1024 * (t.val / 8 % 4) + q.val by omega]

/-- An entry is in point `t`'s output block iff each coordinate is in the block's range. -/
theorem mem_blk (t : Fin cfg0.N) (i : S8192x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v4).slice (win0_4.rect t)).set ↔ _
  rw [View.set_slice_whole, Rect.mem_set_unit]
  exact Iff.rfl

/-- Every entry of the array is in the block some run's last point writes back. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 32 * ((i 0).val / 2048) + 8 * ((i 1).val / 1024) + 7 := ⟨⟨_, by omega⟩, rfl⟩
  obtain ⟨-, -, -, -, -, -, -, -, e0, e1⟩ := idx_facts t
  refine ⟨t, (flush0_4 t).mpr (by omega), ?_⟩
  rw [mem_blk]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 1024 ≤ (i 1).val ∧ (i 1).val < win0_4.index t (1 : Fin 2) * 1024 + 1024
    rw [e1]; omega

/-- The call's output array after the run. -/
theorem final (c : Dev nD) : (dats m 0 c).arrAt 4 cfg0.N = out2 m c :=
  (dats m 0 c).arrAt_eq_of_cover 4 (out2 m c) (flushed_eq m c) cover

/-- The flat result reshaped to [4, 2048, 4096] is the specification. -/
theorem reshape_out2 (c : Dev nD) :
    shapeCast S4x2048x4096 (out2 m c) shapeCasts_S8192x4096_S4x2048x4096 = G (argX m c) (argW m c) (argM m c) (argB m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [G_ix3, entry_eq_at]
  refine (shapeCast_apply (out2 m c) shapeCasts_S8192x4096_S4x2048x4096 (ix3 b s o) (ix2 ⟨2048 * b.val + s.val, by omega⟩ o) ?_).trans ?_
  · rw [Shape.rowMajor_val_three, Shape.rowMajor_val_two]
    show (2048 * b.val + s.val) * 4096 + o.val = (b.val * 2048 + s.val) * 4096 + o.val
    omega
  · show entryAt m c (2048 * b.val + s.val) o.val = _
    unfold entryAt
    rw [show (2048 * b.val + s.val) / 2048 = b.val by omega, show (2048 * b.val + s.val) % 2048 = s.val by omega]

/-- The program's result buffer: the reshape after the call, applied to the call's output array. -/
theorem result_eq (c : Dev nD) :
    Pipeline.afterTail₀ cfgs (dats m) 0 (V0 m) [hostOps1] c main_v5 = G (argX m c) (argW m c) (argM m c) (argB m c) := by
  have hw : Pipeline.withArrays (cfgs 0).spec c (V0 m c) (fun w => (dats m 0 c).arrAt w (cfgs 0).N) (Proc.devRef .tc main_v4)
      = out2 m c :=
    (Pipeline.withArrays_arr spec0 launch0.win.arr_inj c _ _ 4).trans (final m c)
  unfold Pipeline.afterTail₀
  show StableHlo.after hostOps1 _ (Proc.devRef .tc main_v5) = _
  after_results
  rw [hw]
  exact reshape_out2 m c

/-- The run, read: the result buffer at the specification of the arguments, the arguments unchanged. -/
theorem run : θ_run defs (onTc (τ := τ) (main (F := Ideal))) ⟨m, fun _ => 0, ρ⟩ fun r => ∀ c : Dev nD,
      r.2.mem ((c.tc : Thread nD τ).loc main_v5) = G (argX m c) (argW m c) (argM m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  A masked linear layer, blocked on the matrix unit, against its plain reference: both compute
      y[b, s, o] = (∑ e < 4096, x[b, s, e] · (w[o, e] · mk[o, e])) + bias[o]
  on the extended reals. The kernel cuts the contraction into 8 blocks of 512, folds the block products from the left
  into a zeroed accumulator, and adds the bias row after the last block; a change of float format is the identity
  there, and a finite sum over a commutative monoid may be regrouped freely, so the two results are equal entry by
  entry with no assumption on the inputs. The three programs run and leave their arguments as they found them; the
  idealization rewrote no operation.
-/
import proofs.«120315_j57690000719893_2_alg».proof.Defs
import proofs.«120315_j57690000719893_2_alg».proof.Proof.Gen.Kernel
import proofs.«120315_j57690000719893_2_alg».proof.Proof.Gen.Kernel.Frame
import proofs.«120315_j57690000719893_2_alg».proof.Proof.Gen.KernelIdeal
import proofs.«120315_j57690000719893_2_alg».proof.Proof.Gen.KernelIdeal.Frame
import proofs.«120315_j57690000719893_2_alg».proof.Proof.Gen.ReferenceIdeal
import proofs.«120315_j57690000719893_2_alg».proof.Proof.Gen.ReferenceIdeal.Run
import proofs.«120315_j57690000719893_2_alg».proof.Proof.Gen.ReferenceIdeal.Read
import proofs.«120315_j57690000719893_2_alg».proof.Proof.Gen.Pre_finite_inputs
import proofs.«120315_j57690000719893_2_alg».proof.Proof.RefSide
import proofs.«120315_j57690000719893_2_alg».proof.Proof.Final
import Idealize.ShloMosaic.Adequacy
import Idealize.ShloMosaic.Init

noncomputable section

namespace Cert.Proof

open Idealize.ShloMosaic Idealize.SL.Sem Cert.MaskedLinear

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, both idealized programs end with the specification's array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => G (Cert.KernelIdeal.Blocks.argX m c) (Cert.KernelIdeal.Blocks.argW m c) (Cert.KernelIdeal.Blocks.argM m c)
    (Cert.KernelIdeal.Blocks.argB m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.val_eq_G, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
